-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x128 .f32) (main_arg9 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S200000x256 .f32) (main_arg1 : IVec S200000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S200000x128 : Shape := ⟨2, ![200000, 128]⟩
abbrev S200000x1 : Shape := ⟨2, ![200000, 1]⟩
abbrev S4000x256 : Shape := ⟨2, ![4000, 256]⟩
abbrev S4000x128 : Shape := ⟨2, ![4000, 128]⟩
abbrev S4000x1 : Shape := ⟨2, ![4000, 1]⟩
abbrev S4000 : Shape := ⟨1, ![4000]⟩

abbrev nBuf : Space → Nat
  | .hbm => 21
  | .vmem => 14
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S256x256, .bf16⟩
  | .hbm, ⟨11, _⟩ => ⟨S256x256, .bf16⟩
  | .hbm, ⟨12, _⟩ => ⟨S256x256, .bf16⟩
  | .hbm, ⟨13, _⟩ => ⟨S256x128, .bf16⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x128, .f32⟩
  | .hbm, ⟨18, _⟩ => ⟨S200000x128, .f32⟩
  | .hbm, ⟨19, _⟩ => ⟨S200000x1, .f32⟩
  | .hbm, ⟨20, _⟩ => ⟨S200000, .f32⟩
  | .local _ .vmem, ⟨0, _⟩ => ⟨S4000x256, .f32⟩
  | .local _ .vmem, ⟨1, _⟩ => ⟨S4000x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S256_S1x256 : S256.ShapeCasts S1x256
  shapeCasts_S128_S1x128 : S128.ShapeCasts S1x128
  inb_S4000x256_S4000x256_0_0 : ∀ a, (![0, 0] : Fin 2 → Nat) a + S4000x256.size a ≤ S4000x256.size a
  h_S4000x256 : 0 < S4000x256.numel
  reduces_S4000x256_S4000 : S4000x256.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S200000x1_S200000 : S200000x1.ShapeCasts S200000
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S200000x128.size a
  hwx0_9 : ∀ i : grid0.Coords, EltTy.bits .f32 = 32 ∨ (Rect.block (s := S200000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x1.size a ≤ S200000x1.size a
  hwx0_10 : ∀ i : grid0.Coords, EltTy.bits .f32 = 32 ∨ (Rect.block (s := S200000x1) S4000x1.size (cc0_transform_10 i) (hinb0_10 i)).WholeWords (EltTy.packing .f32)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S4000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S200000x1 : Shape := ⟨2, ![200000, 1]⟩
abbrev S1x256 : Shape := ⟨2, ![1, 256]⟩
abbrev S200000x128 : Shape := ⟨2, ![200000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S200000, .i32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000x256, .f32⟩
  | .hbm, ⟨20, _⟩ => ⟨S_, .f32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000x256, .f32⟩
  | .hbm, ⟨26, _⟩ => ⟨S1x256, .f32⟩
  | .hbm, ⟨27, _⟩ => ⟨S200000x256, .f32⟩
  | .hbm, ⟨28, _⟩ => ⟨S200000x256, .f32⟩
  | .hbm, ⟨29, _⟩ => ⟨S_, .f32⟩
  | .hbm, ⟨30, _⟩ => ⟨S200000x256, .f32⟩
  | .hbm, ⟨31, _⟩ => ⟨S200000x256, .f32⟩
  | .hbm, ⟨32, _⟩ => ⟨S200000x256, .f32⟩
  | .hbm, ⟨33, _⟩ => ⟨S1x256, .f32⟩
  | .hbm, ⟨34, _⟩ => ⟨S200000x256, .f32⟩
  | .hbm, ⟨35, _⟩ => ⟨S200000x256, .f32⟩
  | .hbm, ⟨36, _⟩ => ⟨S_, .f32⟩
  | .hbm, ⟨37, _⟩ => ⟨S200000x256, .f32⟩
  | .hbm, ⟨38, _⟩ => ⟨S200000x256, .f32⟩
  | .hbm, ⟨39, _⟩ => ⟨S200000x256, .f32⟩
  | .hbm, ⟨40, _⟩ => ⟨S1x256, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S200000x256, .f32⟩
  | .hbm, ⟨45, _⟩ => ⟨S200000x256, .f32⟩
  | .hbm, ⟨46, _⟩ => ⟨S200000x128, .f32⟩
  | .hbm, ⟨47, _⟩ => ⟨S1x128, .f32⟩
  | .hbm, ⟨48, _⟩ => ⟨S200000x128, .f32⟩
  | .hbm, ⟨49, _⟩ => ⟨S200000x128, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_cst : Ref sig .tc := ⟨.hbm, 36, rfl⟩
abbrev main_call1_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  reducesTo_S200000x256_S200000_d1 : S200000x256.ReducesTo [1] S200000
  h_S_ : 0 < S_.numel
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x256_S200000x1_S200000x256_1_0_n_n_0_1_1256_wf : GatherDims.WF S200000x256 S200000x1 S200000x256 [1] [0] [] [0] [] 1 ![1, 256]
  dot_S200000x256_S256x256_S200000x256_1_0_0_1_n_n_wf : DotDims.WF S200000x256 S256x256 S200000x256 [1] [0] [0] [1] [] []
  dot_S200000x256_S256x128_S200000x128_1_0_0_1_n_n_wf : DotDims.WF S200000x256 S256x128 S200000x128 [1] [0] [0] [1] [] []

variable [Facts₀]

def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibUnitAxes.lean ====
import Idealize.ShloMosaic.PureOps.Ideal.Laws
import Idealize.ShloMosaic.Lib.ValueIdx
import Idealize.ShloMosaic.Lib.ValueLayout

/-!
# Sums and casts along unit axes, read at an index

General lemmas, generic in the extents, about the layout steps a kernel takes around a reduction
that keeps or adds axes of extent one:

* a sum over the indices of an `[n]` vector, or of a `[1, n, 1]` stack, is the sum over `Fin n`;
* every index of a `[1]` vector, of a `[1, 1]` matrix and of a rank-zero array is the one index;
* an `[a]` vector recast as the column `[a, 1]` reads, at `(i, u)`, the vector at `i`;
* a one-element vector recast as `[1, 1, 1]` and read at its position `(0, 0, 0)` is its element;
* a `[1, 1]` matrix recast as a rank-zero array reads its one entry;
* on the extended reals, a `multi_reduction <add>` over the last axis of an `[a, n]` matrix read at
  row `r` is the sum over the row, and one over both inner axes of a `[1, n, 1]` stack is the sum over
  the stack's `n` entries.
-/

namespace Cert.Lib

open Idealize.ShloMosaic Idealize.ShloMosaic.ValueIdx

/-! ## Indices of shapes with unit axes -/

/-- The indices of an `[n]` vector are the elements of `Fin n`. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` vector is the sum over `Fin n`. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

/-- An index of a `[1, n, 1]` stack is `(0, r, 0)` for its middle coordinate `r`. -/
theorem eq_ix3_unit {n : ℕ} (i : (⟨3, ![1, n, 1]⟩ : Shape).Idx) :
    i = ix3 (0 : Fin 1) (i 1) (0 : Fin 1) := by
  funext d
  match d with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- The indices of a `[1, n, 1]` stack are the elements of `Fin n`. -/
def idxEquiv1n1 {n : ℕ} : (⟨3, ![1, n, 1]⟩ : Shape).Idx ≃ Fin n where
  toFun i := i 1
  invFun r := ix3 (0 : Fin 1) r (0 : Fin 1)
  left_inv i := (eq_ix3_unit i).symm
  right_inv _ := rfl

/-- A sum over the indices of a `[1, n, 1]` stack is the sum over `Fin n`. -/
theorem sum_idx1n1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

/-- A `[1]` vector has one index. -/
theorem eq_ix1_zero (i : (⟨1, ![1]⟩ : Shape).Idx) : i = ix1 (0 : Fin 1) := by
  funext d
  match d with
  | ⟨0, _⟩ => exact Fin.ext (by have h : (i 0).val < 1 := (i 0).isLt; show (i 0).val = 0; omega)

/-- A `[1, 1]` matrix has one index. -/
theorem eq_ix2_zero (i : (⟨2, ![1, 1]⟩ : Shape).Idx) : i = ix2 (0 : Fin 1) (0 : Fin 1) := by
  funext d
  match d with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)

/-! ## Casts -/

variable {α : Type}

/-- An `[a]` vector recast as the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-element vector recast as `[1, 1, 1]` and read at its position `(0, 0, 0)` is its element. -/
theorem extract_shapeCast_1_111 (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt shapeCast
  exact congrArg x (eq_ix1_zero _)

/-- A `[1, 1]` matrix recast as a rank-zero array reads its one entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  unfold shapeCast
  exact congrArg x (eq_ix2_zero _)

/-! ## Reductions on the extended reals -/

/-- A `multi_reduction <add>` over the last axis of an `[a, n]` matrix, read at row `r`, is the sum of
    the row's entries. -/
theorem rowSum_apply {φ : FTy} {a n : ℕ} (src : FVec Ideal ⟨2, ![a, n]⟩ φ) (acc : BitVec φ.bits)
    (h : (⟨2, ![a, n]⟩ : Shape).Reduces [1] ⟨1, ![a]⟩) (hφ : FKind.Formats φ)
    (hacc : acc = FKind.add.neutral φ hφ) (r : Fin a) :
    multiReduction .add [1] ⟨1, ![a]⟩ src acc h hφ hacc (ix1 r) = ∑ k : Fin n, src (ix2 r k) :=
  (Ideal.multiReduction_add_single src acc h hφ hacc (ix1 r)).trans
    (Finset.sum_congr rfl fun k _ => congrArg src (funext fun d => Fin.ext (by
      match d with | ⟨0, _⟩ => rfl | ⟨1, _⟩ => rfl)))

/-- A `multi_reduction <add>` over both inner axes of a `[1, n, 1]` stack is the sum of its `n`
    entries. -/
theorem stackSum_apply {φ : FTy} {n : ℕ} (src : FVec Ideal ⟨3, ![1, n, 1]⟩ φ) (acc : BitVec φ.bits)
    (h : (⟨3, ![1, n, 1]⟩ : Shape).Reduces [1, 2] ⟨1, ![1]⟩) (hφ : FKind.Formats φ)
    (hacc : acc = FKind.add.neutral φ hφ) (j : (⟨1, ![1]⟩ : Shape).Idx) :
    multiReduction .add [1, 2] ⟨1, ![1]⟩ src acc h hφ hacc j
      = ∑ r : Fin n, src (ix3 (0 : Fin 1) r (0 : Fin 1)) :=
  (Ideal.multiReduction_add_total src acc h (fun b => by match b with | ⟨0, _⟩ => rfl) hφ hacc j).trans
    (sum_idx1n1 src)

end Cert.Lib
-- ==== Proof.LibRowLayers.lean ====
/-
  Dense layers and a feature mean, one row at a time, on the extended reals.

  A dense layer sends a row `h` of `K` numbers to the row `q ↦ (∑ k, h k · W k q) + b q`; a rectifier takes the
  maximum of each entry with the zero word of f32. Row `p` of a layer's output depends on row `p` of its input
  only, so a stack of such layers applied to a matrix is the stack applied to each row by itself: this is what
  lets a tile of rows computed on its own be compared with the whole matrix product.

  Two spellings of one dense layer are read here at an entry `(p, q)`, generic in the extents:
  a kernel tile's `tpu.matmul` (rows × contraction against contraction × columns, into the zero accumulator)
  plus a `[1, B]` bias row repeated over the rows; and the mean over the last axis of an `[a, n]` tile kept as
  a column `[a, 1]`.
-/
import Idealize.ShloMosaic.PureOps.Ideal.Laws
import Idealize.ShloMosaic.Lib.ValueIdx
import Idealize.ShloMosaic.Lib.ValueLayout
import Idealize.ShloMosaic.Lib.Pipeline.Value
import proofs.«144793_j41540923687233_2_alg».proof.Proof.LibMatmul2
import proofs.«144793_j41540923687233_2_alg».proof.Proof.LibUnitAxes

noncomputable section

namespace Cert.RowLayers

open Idealize.ShloMosaic Idealize.ShloMosaic.ValueIdx

/-- A dense layer on one row: `q ↦ (∑ k, h k · W k q) + b q`. -/
def affine {K B : ℕ} (h : Fin K → EReal) (W : Fin K → Fin B → EReal) (b : Fin B → EReal) : Fin B → EReal :=
  fun q => (∑ k : Fin K, h k * W k q) + b q

/-- The rectifier on one row: each entry's maximum with the zero word of f32. -/
def relu {B : ℕ} (h : Fin B → EReal) : Fin B → EReal :=
  fun q => max (h q) (Ideal.ofBits .f32 0x00000000#32)

/-- The mean of a row of `n` numbers as both programs spell it: the sum divided by the f32 word `d`. -/
def rowMean {n : ℕ} (d : BitVec 32) (h : Fin n → EReal) : EReal :=
  Ideal.div (∑ k : Fin n, h k) (Ideal.ofBits .f32 d)

/-- Four dense layers with a rectifier after each of the first three, on one row. -/
def mlp4 {D H O : ℕ} (x : Fin D → EReal) (W1 : Fin D → Fin H → EReal) (b1 : Fin H → EReal)
    (W2 : Fin H → Fin H → EReal) (b2 : Fin H → EReal) (W3 : Fin H → Fin H → EReal) (b3 : Fin H → EReal)
    (Wo : Fin H → Fin O → EReal) (bo : Fin O → EReal) : Fin O → EReal :=
  affine (relu (affine (relu (affine (relu (affine x W1 b1)) W2 b2)) W3 b3)) Wo bo

/-- The four layers depend on their row, weights and biases entry by entry. -/
theorem mlp4_congr {D H O : ℕ} {x x' : Fin D → EReal} {W1 W1' : Fin D → Fin H → EReal} {b1 b1' : Fin H → EReal}
    {W2 W2' : Fin H → Fin H → EReal} {b2 b2' : Fin H → EReal} {W3 W3' : Fin H → Fin H → EReal} {b3 b3' : Fin H → EReal}
    {Wo Wo' : Fin H → Fin O → EReal} {bo bo' : Fin O → EReal}
    (hx : ∀ k, x k = x' k) (hW1 : ∀ k q, W1 k q = W1' k q) (hb1 : ∀ q, b1 q = b1' q)
    (hW2 : ∀ k q, W2 k q = W2' k q) (hb2 : ∀ q, b2 q = b2' q) (hW3 : ∀ k q, W3 k q = W3' k q) (hb3 : ∀ q, b3 q = b3' q)
    (hWo : ∀ k q, Wo k q = Wo' k q) (hbo : ∀ q, bo q = bo' q) (q : Fin O) :
    mlp4 x W1 b1 W2 b2 W3 b3 Wo bo q = mlp4 x' W1' b1' W2' b2' W3' b3' Wo' bo' q := by
  obtain rfl : x = x' := funext hx
  obtain rfl : W1 = W1' := funext fun k => funext (hW1 k)
  obtain rfl : b1 = b1' := funext hb1
  obtain rfl : W2 = W2' := funext fun k => funext (hW2 k)
  obtain rfl : b2 = b2' := funext hb2
  obtain rfl : W3 = W3' := funext fun k => funext (hW3 k)
  obtain rfl : b3 = b3' := funext hb3
  obtain rfl : Wo = Wo' := funext fun k => funext (hWo k)
  obtain rfl : bo = bo' := funext hbo
  rfl

variable {A K B : ℕ} {φ₁ φ₂ : FTy}

/-- A kernel tile's dense layer at `(p, q)`: the product into the zero accumulator plus the bias row. -/
theorem tile_affine_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (w : FVec Ideal ⟨2, ![K, B]⟩ φ₂) (b : FVec Ideal ⟨2, ![1, B]⟩ .f32)
    (hw : (⟨2, ![K, B]⟩ : Shape).ShapeCasts ⟨2, ![K, B]⟩) (hb : (⟨2, ![1, B]⟩ : Shape).ShapeCasts ⟨2, ![1, B]⟩)
    (hbc : (⟨2, ![1, B]⟩ : Shape).Broadcasts ⟨2, ![A, B]⟩) (p : Fin A) (q : Fin B) :
    addf (matmul D none l (shapeCast ⟨2, ![K, B]⟩ w hw) (constant ⟨2, ![A, B]⟩ .f32 0x00000000#32))
        (broadcastTo ⟨2, ![A, B]⟩ (shapeCast ⟨2, ![1, B]⟩ b hb) hbc) (ix2 p q)
      = affine (fun k => l (ix2 p k)) (fun k q => w (ix2 k q)) (fun q => b (ix2 (0 : Fin 1) q)) q := by
  subst hD
  rw [addf_apply, Cert.Lib.matmul2_zero_apply, broadcastTo_1b_ab_apply, shapeCast_self, shapeCast_self]
  rfl

/-- A kernel tile's dense layer followed by the rectifier and a change of float format (the identity on the
    extended reals), at `(p, q)`. -/
theorem tile_hidden_apply {ψ : FTy} (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (w : FVec Ideal ⟨2, ![K, B]⟩ φ₂) (b : FVec Ideal ⟨2, ![1, B]⟩ .f32)
    (hw : (⟨2, ![K, B]⟩ : Shape).ShapeCasts ⟨2, ![K, B]⟩) (hb : (⟨2, ![1, B]⟩ : Shape).ShapeCasts ⟨2, ![1, B]⟩)
    (hbc : (⟨2, ![1, B]⟩ : Shape).Broadcasts ⟨2, ![A, B]⟩) (hlt : ψ.bits < (FTy.f32).bits) (p : Fin A) (q : Fin B) :
    (truncf ψ (maximumf (addf (matmul D none l (shapeCast ⟨2, ![K, B]⟩ w hw) (constant ⟨2, ![A, B]⟩ .f32 0x00000000#32))
        (broadcastTo ⟨2, ![A, B]⟩ (shapeCast ⟨2, ![1, B]⟩ b hb) hbc))
        (broadcast ⟨2, ![A, B]⟩ (Scalar.ofBits (F := Ideal) .f32 0x00000000#32))) hlt : FVec Ideal ⟨2, ![A, B]⟩ ψ) (ix2 p q)
      = relu (affine (fun k => l (ix2 p k)) (fun k q => w (ix2 k q)) (fun q => b (ix2 (0 : Fin 1) q))) q :=
  congrArg (max · (Ideal.ofBits .f32 0x00000000#32)) (tile_affine_apply D wf hD l w b hw hb hbc p q)

/-- A tile's rectifier at an entry. -/
theorem tile_relu_apply {s : Shape} (x : FVec Ideal s .f32) (i : s.Idx) :
    maximumf x (broadcast s (Scalar.ofBits (F := Ideal) .f32 0x00000000#32)) i
      = max (x i) (Ideal.ofBits .f32 0x00000000#32) := rfl

/-- A tile's mean over the last axis, kept as a column, at `(p, u)`. -/
theorem tile_mean_apply {a n : ℕ} (d : BitVec 32) (x : FVec Ideal ⟨2, ![a, n]⟩ .f32)
    (h : (⟨2, ![a, n]⟩ : Shape).Reduces [1] ⟨1, ![a]⟩) (hφ : FKind.Formats .f32)
    (hacc : (0x00000000#32 : BitVec (FTy.f32).bits) = FKind.add.neutral .f32 hφ)
    (hc : (⟨1, ![a]⟩ : Shape).ShapeCasts ⟨2, ![a, 1]⟩) (p : Fin a) (u : Fin 1) :
    divf (shapeCast ⟨2, ![a, 1]⟩ (multiReduction .add [1] ⟨1, ![a]⟩ x 0x00000000#32 h hφ hacc) hc)
        (broadcast ⟨2, ![a, 1]⟩ (Scalar.ofBits (F := Ideal) .f32 d)) (ix2 p u)
      = rowMean d (fun k => x (ix2 p k)) := by
  rw [divf_apply, Cert.Lib.shapeCast_a_a1_apply, Cert.Lib.rowSum_apply]
  rfl

end Cert.RowLayers

end
-- ==== Proof.TileValue.lean ====
/-
  What one grid point's body computes, entry by entry, on the extended reals.

  The body loads a tile of 4000 rows of the node matrix, the four weight matrices and the four bias rows. Into the
  column block it stores each row's sum divided by 256; into the output block it stores, for row `p`, the four
  dense layers (a rectifier after each of the first three) applied to row `p` of the tile. The changes of float
  format on the way into each product are the identity on the extended reals.
-/
import proofs.«144793_j41540923687233_2_alg».proof.Proof.Gen.KernelIdeal.Frame
import proofs.«144793_j41540923687233_2_alg».proof.Proof.LibRowLayers

noncomputable section

namespace Cert.KernelIdeal.Tile

open Cert.KernelIdeal Cert.KernelIdeal.Gen Cert.RowLayers Idealize.ShloMosaic Idealize.ShloMosaic.ValueIdx

/-- The first three layers of row `p` of the tile, before the third rectifier, at column `q`. -/
theorem hidden_apply (x0 : Vec Ideal S4000x256 .f32) (x1 : Vec Ideal S256x256 .bf16) (x2 : Vec Ideal S1x256 .f32)
    (x3 : Vec Ideal S256x256 .bf16) (x4 : Vec Ideal S1x256 .f32) (x5 : Vec Ideal S256x256 .bf16) (x6 : Vec Ideal S1x256 .f32)
    (p : Fin 4000) (q : Fin 256) :
    k0_pay3 (F := Ideal) x0 x1 x2 x3 x4 x5 x6 (ix2 p q)
      = affine (relu (affine (relu (affine (fun k => x0 (ix2 p k)) (fun k q => x1 (ix2 k q)) (fun q => x2 (ix2 (0 : Fin 1) q))))
          (fun k q => x3 (ix2 k q)) (fun q => x4 (ix2 (0 : Fin 1) q))))
          (fun k q => x5 (ix2 k q)) (fun q => x6 (ix2 (0 : Fin 1) q)) q := by
  refine (tile_affine_apply _ Facts₀.dot_S4000x256_S256x256_S4000x256_1_0_0_1_n_n_wf rfl _ x5 x6 _ _ _ p q).trans ?_
  refine congrArg (fun h => affine h _ _ q) (funext fun k => ?_)
  refine (tile_hidden_apply _ Facts₀.dot_S4000x256_S256x256_S4000x256_1_0_0_1_n_n_wf rfl _ x3 x4 _ _ _ _ p k).trans ?_
  refine congrArg (fun h => relu (affine h _ _) k) (funext fun k' => ?_)
  exact tile_hidden_apply _ Facts₀.dot_S4000x256_S256x256_S4000x256_1_0_0_1_n_n_wf rfl _ x1 x2 _ _ _ _ p k'

/-- The output block at `(p, q)`: the four layers of row `p` of the tile. -/
theorem out_apply (x0 : Vec Ideal S4000x256 .f32) (x1 : Vec Ideal S256x256 .bf16) (x2 : Vec Ideal S1x256 .f32)
    (x3 : Vec Ideal S256x256 .bf16) (x4 : Vec Ideal S1x256 .f32) (x5 : Vec Ideal S256x256 .bf16) (x6 : Vec Ideal S1x256 .f32)
    (x7 : Vec Ideal S256x128 .bf16) (x8 : Vec Ideal S1x128 .f32) (p : Fin 4000) (q : Fin 128) :
    k0_pay1 (F := Ideal) (k0_pay3 x0 x1 x2 x3 x4 x5 x6) (Scalar.ofBits .f32 0x00000000#32) x7 x8 (ix2 p q)
      = mlp4 (fun k => x0 (ix2 p k)) (fun k q => x1 (ix2 k q)) (fun q => x2 (ix2 (0 : Fin 1) q))
          (fun k q => x3 (ix2 k q)) (fun q => x4 (ix2 (0 : Fin 1) q)) (fun k q => x5 (ix2 k q)) (fun q => x6 (ix2 (0 : Fin 1) q))
          (fun k q => x7 (ix2 k q)) (fun q => x8 (ix2 (0 : Fin 1) q)) q := by
  refine (tile_affine_apply _ Facts₀.dot_S4000x256_S256x128_S4000x128_1_0_0_1_n_n_wf rfl _ x7 x8 _ _ _ p q).trans ?_
  refine congrArg (fun h => affine h _ _ q) (funext fun k => ?_)
  exact congrArg (max · (Ideal.ofBits .f32 0x00000000#32)) (hidden_apply x0 x1 x2 x3 x4 x5 x6 p k)

/-- The column block at `(p, u)`: the mean of row `p` of the tile. -/
theorem agg_apply (x0 : Vec Ideal S4000x256 .f32) (p : Fin 4000) (u : Fin 1) :
    k0_pay2 (F := Ideal) x0 (ix2 p u) = rowMean 0x43800000#32 (fun k => x0 (ix2 p k)) :=
  tile_mean_apply 0x43800000#32 x0 _ _ _ _ p u

end Cert.KernelIdeal.Tile

end
-- ==== Proof.Spec.lean ====
/-
  The two results as whole-array functions of the argument arrays, on the extended reals.

  `outG`: entry `(r, q)` of the first result is the four dense layers (a rectifier after each of the first three)
  applied to row `r` of the node matrix, read at column `q`. `aggG`: entry `r` of the second result is the mean
  of row `r` of the node matrix, its sum divided by the f32 word for 256; `aggColG` is the same numbers kept as a
  column of 200000 rows.
-/
import proofs.«144793_j41540923687233_2_alg».proof.Proof.LibRowLayers

noncomputable section

namespace Cert.Spec

open Idealize.ShloMosaic Idealize.ShloMosaic.ValueIdx Cert.RowLayers

/-- The first result: the four layers of each node's row. -/
def outG (X : (⟨2, ![200000, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (Wo : (⟨2, ![256, 128]⟩ : Shape).Idx → EReal) (bo : (⟨1, ![128]⟩ : Shape).Idx → EReal) :
    (⟨2, ![200000, 128]⟩ : Shape).Idx → EReal :=
  fun i => mlp4 (fun k : Fin 256 => X (ix2 (i 0 : Fin 200000) k))
    (fun k q => W1 (ix2 k q)) (fun q => b1 (ix1 q)) (fun k q => W2 (ix2 k q)) (fun q => b2 (ix1 q))
    (fun k q => W3 (ix2 k q)) (fun q => b3 (ix1 q)) (fun k q => Wo (ix2 k q)) (fun q => bo (ix1 q)) (i 1 : Fin 128)

/-- The second result: the mean of each node's row. -/
def aggG (X : (⟨2, ![200000, 256]⟩ : Shape).Idx → EReal) : (⟨1, ![200000]⟩ : Shape).Idx → EReal :=
  fun i => rowMean 0x43800000#32 (fun k : Fin 256 => X (ix2 (i 0 : Fin 200000) k))

/-- The same means as a column. -/
def aggColG (X : (⟨2, ![200000, 256]⟩ : Shape).Idx → EReal) : (⟨2, ![200000, 1]⟩ : Shape).Idx → EReal :=
  fun i => rowMean 0x43800000#32 (fun k : Fin 256 => X (ix2 (i 0 : Fin 200000) k))

end Cert.Spec

end
-- ==== Proof.LibDropUnit.lean ====
/-
  Dropping a unit axis, cutting rows out of a matrix, and two pointwise functions read at an index.

  A column [a, 1] recast as the vector [a], and a stack [a, 1, n] recast as the matrix [a, n], keep every entry at its
  row-major position: the vector at i is the column at (i, 0), the matrix at (p, k) is the stack at (p, 0, k). A
  unit-stride slice of rows o, o+1, …, o+n-1 of an [N, C] matrix read at (p, q) is the matrix at (o + p, q). At the
  extended reals the exponential and the hyperbolic tangent of an array are taken entry by entry. Every lemma is generic
  in the extents and has its indices written by coordinates.
-/
import Idealize.ShloMosaic.Lib.ValueLayout
import Idealize.ShloMosaic.PureOps.Ideal.Laws

noncomputable section

namespace Cert.Lib

open Idealize.ShloMosaic Idealize.ShloMosaic.ValueIdx

variable {α : Type}

/-- A column [a, 1] recast as the vector [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A stack [a, 1, n] recast as the matrix [a, n] reads, at (p, k), the stack at (p, 0, k). -/
theorem shapeCast_a1n_an_apply {a n : ℕ} (x : (⟨3, ![a, 1, n]⟩ : Shape).Idx → α)
    (h : (⟨3, ![a, 1, n]⟩ : Shape).ShapeCasts ⟨2, ![a, n]⟩) (p : Fin a) (k : Fin n) :
    shapeCast ⟨2, ![a, n]⟩ x h (ix2 p k) = x (ix3 p (0 : Fin 1) k) :=
  shapeCast_apply x h _ _ (by
    rw [Shape.rowMajor_val_three, Shape.rowMajor_val_two]
    show (p.val * 1 + 0) * n + k.val = p.val * n + k.val
    rw [Nat.mul_one, Nat.add_zero])

/-- Rows o … o+n-1 of an [N, C] matrix, read at (p, q): the matrix at row o + p (named `p'`), column q. -/
theorem slice_rows_apply {N C n : ℕ} (o : ℕ) (x : (⟨2, ![N, C]⟩ : Shape).Idx → α)
    (h : (⟨2, ![N, C]⟩ : Shape).Slices ![o, 0] ⟨2, ![n, C]⟩) (p : Fin n) (q : Fin C) (p' : Fin N)
    (hp : p'.val = o + p.val) :
    extractStridedSlice ⟨2, ![n, C]⟩ ![o, 0] x h (ix2 p q) = x (ix2 p' q) :=
  extractStridedSlice_apply ![o, 0] x h (ix2 p q) (ix2 p' q) (fun a => match a with
    | ⟨0, _⟩ => by show p'.val = o + p.val; exact hp
    | ⟨1, _⟩ => by show q.val = 0 + q.val; rw [Nat.zero_add])

/-- The exponential of an array of extended reals, read at an index. -/
theorem exp_apply {s : Shape} {φ : FTy} (v : FVec Ideal s φ) (i : s.Idx) : exp v i = Ideal.exp (v i) := rfl

/-- The hyperbolic tangent of an array of extended reals, read at an index. -/
theorem tanh_apply {s : Shape} {φ : FTy} (v : FVec Ideal s φ) (i : s.Idx) : tanh v i = Ideal.tanh (v i) := rfl

end Cert.Lib

end
-- ==== Proof.KernelArrays.lean ====
/-
  From the blocks each grid point writes back to the two result arrays of the kernel's run.

  Point `t` of the 50 stages rows 4000·t … 4000·t + 3999 of the node matrix, the whole of each weight matrix and
  bias row, and writes back rows 4000·t … 4000·t + 3999 of the output and of the column of means. Since a row of
  the output depends on the same row of the input only, what point `t` writes is block `t` of one whole-array
  function; the 50 blocks tile each array, so the arrays end holding those functions. The weights reach the region
  through a change of float format (the identity on the extended reals) and the biases recast as `[1, n]` rows; the
  column of means is recast as a vector after the region.
-/
import proofs.«144793_j41540923687233_2_alg».proof.Proof.Gen.KernelIdeal.Frame
import proofs.«144793_j41540923687233_2_alg».proof.Proof.TileValue
import proofs.«144793_j41540923687233_2_alg».proof.Proof.Spec
import proofs.«144793_j41540923687233_2_alg».proof.Proof.LibDropUnit
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.RowLayers Cert.Spec Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The index maps -/

/-- The node tile, the output tile and the column tile move down by one block per point. -/
theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The weights and bias rows are staged whole at every point. -/
theorem idx_fixed : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The staged blocks, read in the arrays the region finds -/

/-- Row `p` of the node tile at point `t` is row `4000·t + p` of the node matrix. -/
theorem rows_read (c : Dev nD) (t : Fin cfg0.N) (p : Fin 4000) (k : Fin 256) (r : Fin 200000)
    (hr : r.val = t.val * 4000 + p.val) :
    (iblk m c 0 t : Vec Ideal S4000x256 .f32) (ix2 p k) = (V m c main_arg0 : S200000x256.Idx → EReal) (ix2 r k) := by
  obtain ⟨e0, e1, -⟩ := idx_rows t
  show V m c main_arg0 (((cfg0.win 0).blk t).view.emb (ix2 p k)) = _
  refine congrArg (V m c main_arg0) (funext fun a => Fin.ext ?_)
  match a with
  | ⟨0, _⟩ => show win0_0.index t (0 : Fin 2) * 4000 + 1 * p.val = r.val; rw [e0, hr]; omega
  | ⟨1, _⟩ => show win0_0.index t (1 : Fin 2) * 256 + 1 * k.val = k.val; rw [e1]; omega

/-- A staged weight matrix or bias row is the whole array the region finds. -/
theorem read1 (c : Dev nD) (t : Fin cfg0.N) (k : Fin 256) (q : Fin 256) :
    (iblk m c 1 t : Vec Ideal S256x256 .bf16) (ix2 k q) = (V m c main_v0 : S256x256.Idx → EReal) (ix2 k q) := by
  obtain ⟨e0, e1⟩ := (idx_fixed t).1
  show V m c main_v0 (((cfg0.win 1).blk t).view.emb (ix2 k q)) = _
  refine congrArg (V m c main_v0) (funext fun a => Fin.ext ?_)
  match a with
  | ⟨0, _⟩ => show win0_1.index t (0 : Fin 2) * 256 + 1 * k.val = k.val; rw [e0]; omega
  | ⟨1, _⟩ => show win0_1.index t (1 : Fin 2) * 256 + 1 * q.val = q.val; rw [e1]; omega

theorem read2 (c : Dev nD) (t : Fin cfg0.N) (k : Fin 1) (q : Fin 256) :
    (iblk m c 2 t : Vec Ideal S1x256 .f32) (ix2 k q) = (V m c main_v4 : S1x256.Idx → EReal) (ix2 k q) := by
  obtain ⟨e0, e1⟩ := (idx_fixed t).2.1
  show V m c main_v4 (((cfg0.win 2).blk t).view.emb (ix2 k q)) = _
  refine congrArg (V m c main_v4) (funext fun a => Fin.ext ?_)
  match a with
  | ⟨0, _⟩ => show win0_2.index t (0 : Fin 2) * 1 + 1 * k.val = k.val; rw [e0]; omega
  | ⟨1, _⟩ => show win0_2.index t (1 : Fin 2) * 256 + 1 * q.val = q.val; rw [e1]; omega

theorem read3 (c : Dev nD) (t : Fin cfg0.N) (k : Fin 256) (q : Fin 256) :
    (iblk m c 3 t : Vec Ideal S256x256 .bf16) (ix2 k q) = (V m c main_v1 : S256x256.Idx → EReal) (ix2 k q) := by
  obtain ⟨e0, e1⟩ := (idx_fixed t).2.2.1
  show V m c main_v1 (((cfg0.win 3).blk t).view.emb (ix2 k q)) = _
  refine congrArg (V m c main_v1) (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

theorem read4 (c : Dev nD) (t : Fin cfg0.N) (k : Fin 1) (q : Fin 256) :
    (iblk m c 4 t : Vec Ideal S1x256 .f32) (ix2 k q) = (V m c main_v5 : S1x256.Idx → EReal) (ix2 k q) := by
  obtain ⟨e0, e1⟩ := (idx_fixed t).2.2.2.1
  show V m c main_v5 (((cfg0.win 4).blk t).view.emb (ix2 k q)) = _
  refine congrArg (V m c main_v5) (funext fun a => Fin.ext ?_)
  match a with
  | ⟨0, _⟩ => show win0_4.index t (0 : Fin 2) * 1 + 1 * k.val = k.val; rw [e0]; omega
  | ⟨1, _⟩ => show win0_4.index t (1 : Fin 2) * 256 + 1 * q.val = q.val; rw [e1]; omega

theorem read5 (c : Dev nD) (t : Fin cfg0.N) (k : Fin 256) (q : Fin 256) :
    (iblk m c 5 t : Vec Ideal S256x256 .bf16) (ix2 k q) = (V m c main_v2 : S256x256.Idx → EReal) (ix2 k q) := by
  obtain ⟨e0, e1⟩ := (idx_fixed t).2.2.2.2.1
  show V m c main_v2 (((cfg0.win 5).blk t).view.emb (ix2 k q)) = _
  refine congrArg (V m c main_v2) (funext fun a => Fin.ext ?_)
  match a with
  | ⟨0, _⟩ => show win0_5.index t (0 : Fin 2) * 256 + 1 * k.val = k.val; rw [e0]; omega
  | ⟨1, _⟩ => show win0_5.index t (1 : Fin 2) * 256 + 1 * q.val = q.val; rw [e1]; omega

theorem read6 (c : Dev nD) (t : Fin cfg0.N) (k : Fin 1) (q : Fin 256) :
    (iblk m c 6 t : Vec Ideal S1x256 .f32) (ix2 k q) = (V m c main_v6 : S1x256.Idx → EReal) (ix2 k q) := by
  obtain ⟨e0, e1⟩ := (idx_fixed t).2.2.2.2.2.1
  show V m c main_v6 (((cfg0.win 6).blk t).view.emb (ix2 k q)) = _
  refine congrArg (V m c main_v6) (funext fun a => Fin.ext ?_)
  match a with
  | ⟨0, _⟩ => show win0_6.index t (0 : Fin 2) * 1 + 1 * k.val = k.val; rw [e0]; omega
  | ⟨1, _⟩ => show win0_6.index t (1 : Fin 2) * 256 + 1 * q.val = q.val; rw [e1]; omega

theorem read7 (c : Dev nD) (t : Fin cfg0.N) (k : Fin 256) (q : Fin 128) :
    (iblk m c 7 t : Vec Ideal S256x128 .bf16) (ix2 k q) = (V m c main_v3 : S256x128.Idx → EReal) (ix2 k q) := by
  obtain ⟨e0, e1⟩ := (idx_fixed t).2.2.2.2.2.2.1
  show V m c main_v3 (((cfg0.win 7).blk t).view.emb (ix2 k q)) = _
  refine congrArg (V m c main_v3) (funext fun a => Fin.ext ?_)
  match a with
  | ⟨0, _⟩ => show win0_7.index t (0 : Fin 2) * 256 + 1 * k.val = k.val; rw [e0]; omega
  | ⟨1, _⟩ => show win0_7.index t (1 : Fin 2) * 128 + 1 * q.val = q.val; rw [e1]; omega

theorem read8 (c : Dev nD) (t : Fin cfg0.N) (k : Fin 1) (q : Fin 128) :
    (iblk m c 8 t : Vec Ideal S1x128 .f32) (ix2 k q) = (V m c main_v7 : S1x128.Idx → EReal) (ix2 k q) := by
  obtain ⟨e0, e1⟩ := (idx_fixed t).2.2.2.2.2.2.2
  show V m c main_v7 (((cfg0.win 8).blk t).view.emb (ix2 k q)) = _
  refine congrArg (V m c main_v7) (funext fun a => Fin.ext ?_)
  match a with
  | ⟨0, _⟩ => show win0_8.index t (0 : Fin 2) * 1 + 1 * k.val = k.val; rw [e0]; omega
  | ⟨1, _⟩ => show win0_8.index t (1 : Fin 2) * 128 + 1 * q.val = q.val; rw [e1]; omega

/-! ## The arrays the host lines before the region wrote -/

/-- A weight matrix reaches the region through a change of float format: on the extended reals, unchanged. -/
theorem V_w1 (c : Dev nD) : (V m c main_v0 : S256x256.Idx → EReal) = m ((c : Thread nD τ).loc main_arg2) := by
  show StableHlo.after hostOps0 (fun b => m (c, b)) (Proc.devRef .tc main_v0) = _
  after_results
  rfl

theorem V_w2 (c : Dev nD) : (V m c main_v1 : S256x256.Idx → EReal) = m ((c : Thread nD τ).loc main_arg4) := by
  show StableHlo.after hostOps0 (fun b => m (c, b)) (Proc.devRef .tc main_v1) = _
  after_results
  rfl

theorem V_w3 (c : Dev nD) : (V m c main_v2 : S256x256.Idx → EReal) = m ((c : Thread nD τ).loc main_arg6) := by
  show StableHlo.after hostOps0 (fun b => m (c, b)) (Proc.devRef .tc main_v2) = _
  after_results
  rfl

theorem V_wo (c : Dev nD) : (V m c main_v3 : S256x128.Idx → EReal) = m ((c : Thread nD τ).loc main_arg8) := by
  show StableHlo.after hostOps0 (fun b => m (c, b)) (Proc.devRef .tc main_v3) = _
  after_results
  rfl

/-- A bias reaches the region recast as a one-row matrix: entry `(0, q)` is entry `q` of the vector. -/
theorem V_b1 (c : Dev nD) (u : Fin 1) (q : Fin 256) :
    (V m c main_v4 : S1x256.Idx → EReal) (ix2 u q) = (m ((c : Thread nD τ).loc main_arg3) : S256.Idx → EReal) (ix1 q) := by
  have e : (V m c main_v4 : S1x256.Idx → EReal)
      = shapeCast S1x256 (m ((c : Thread nD τ).loc main_arg3) : S256.Idx → EReal) Facts₀.shapeCasts_S256_S1x256 := by
    show StableHlo.after hostOps0 (fun b => m (c, b)) (Proc.devRef .tc main_v4) = _
    after_results
    rfl
  rw [e]
  exact shapeCast_a_1a_apply _ _ u q

theorem V_b2 (c : Dev nD) (u : Fin 1) (q : Fin 256) :
    (V m c main_v5 : S1x256.Idx → EReal) (ix2 u q) = (m ((c : Thread nD τ).loc main_arg5) : S256.Idx → EReal) (ix1 q) := by
  have e : (V m c main_v5 : S1x256.Idx → EReal)
      = shapeCast S1x256 (m ((c : Thread nD τ).loc main_arg5) : S256.Idx → EReal) Facts₀.shapeCasts_S256_S1x256 := by
    show StableHlo.after hostOps0 (fun b => m (c, b)) (Proc.devRef .tc main_v5) = _
    after_results
    rfl
  rw [e]
  exact shapeCast_a_1a_apply _ _ u q

theorem V_b3 (c : Dev nD) (u : Fin 1) (q : Fin 256) :
    (V m c main_v6 : S1x256.Idx → EReal) (ix2 u q) = (m ((c : Thread nD τ).loc main_arg7) : S256.Idx → EReal) (ix1 q) := by
  have e : (V m c main_v6 : S1x256.Idx → EReal)
      = shapeCast S1x256 (m ((c : Thread nD τ).loc main_arg7) : S256.Idx → EReal) Facts₀.shapeCasts_S256_S1x256 := by
    show StableHlo.after hostOps0 (fun b => m (c, b)) (Proc.devRef .tc main_v6) = _
    after_results
    rfl
  rw [e]
  exact shapeCast_a_1a_apply _ _ u q

theorem V_bo (c : Dev nD) (u : Fin 1) (q : Fin 128) :
    (V m c main_v7 : S1x128.Idx → EReal) (ix2 u q) = (m ((c : Thread nD τ).loc main_arg9) : S128.Idx → EReal) (ix1 q) := by
  have e : (V m c main_v7 : S1x128.Idx → EReal)
      = shapeCast S1x128 (m ((c : Thread nD τ).loc main_arg9) : S128.Idx → EReal) Facts₀.shapeCasts_S128_S1x128 := by
    show StableHlo.after hostOps0 (fun b => m (c, b)) (Proc.devRef .tc main_v7) = _
    after_results
    rfl
  rw [e]
  exact shapeCast_a_1a_apply _ _ u q

/-! ## What a point writes back is a block of one whole-array function -/

/-- The first result as a function of the launch contents of the arguments. -/
abbrev G9 (c : Dev nD) : S200000x128.Idx → EReal := outG (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The column of means as a function of the launch contents of the node matrix. -/
abbrev G10 (c : Dev nD) : S200000x1.Idx → EReal := aggColG (m ((c : Thread nD τ).loc main_arg0))

/-- Entry `j` of the output block of point `t` is entry `i` of `G9` when `i` is `j` moved down by `4000·t` rows. -/
theorem block9 (c : Dev nD) (t : Fin cfg0.N) (j : S4000x128.Idx) (i : S200000x128.Idx)
    (hi0 : (i 0).val = t.val * 4000 + (j 0).val) (hi1 : (i 1).val = (j 1).val) :
    k0_pay1 (F := Ideal) (k0_pay3 (iblk m c 0 t) (iblk m c 1 t) (iblk m c 2 t) (iblk m c 3 t) (iblk m c 4 t) (iblk m c 5 t) (iblk m c 6 t)) (Scalar.ofBits .f32 0x00000000#32) (iblk m c 7 t) (iblk m c 8 t) j = G9 m c i := by
  obtain ⟨p, q, rfl⟩ : ∃ (p : Fin 4000) (q : Fin 128), j = ix2 p q := ⟨j 0, j 1, eq_ix2 j⟩
  obtain ⟨r, q', rfl⟩ : ∃ (r : Fin 200000) (q' : Fin 128), i = ix2 r q' := ⟨i 0, i 1, eq_ix2 i⟩
  obtain rfl : q = q' := Fin.ext hi1.symm
  refine (Tile.out_apply (iblk m c 0 t) (iblk m c 1 t) (iblk m c 2 t) (iblk m c 3 t) (iblk m c 4 t) (iblk m c 5 t) (iblk m c 6 t) (iblk m c 7 t) (iblk m c 8 t) p q).trans ?_
  unfold G9 outG
  refine mlp4_congr (fun k => ?_) (fun k q => ?_) (fun q => ?_) (fun k q => ?_) (fun q => ?_) (fun k q => ?_) (fun q => ?_)
    (fun k q => ?_) (fun q => ?_) q
  · exact (rows_read m c t p k r hi0).trans (congrFun (V_main_arg0 m c) _)
  · exact (read1 m c t k q).trans (congrFun (V_w1 m c) _)
  · exact (read2 m c t 0 q).trans (V_b1 m c 0 q)
  · exact (read3 m c t k q).trans (congrFun (V_w2 m c) _)
  · exact (read4 m c t 0 q).trans (V_b2 m c 0 q)
  · exact (read5 m c t k q).trans (congrFun (V_w3 m c) _)
  · exact (read6 m c t 0 q).trans (V_b3 m c 0 q)
  · exact (read7 m c t k q).trans (congrFun (V_wo m c) _)
  · exact (read8 m c t 0 q).trans (V_bo m c 0 q)

/-- Entry `j` of the column block of point `t` is entry `i` of `G10` when `i` is `j` moved down by `4000·t` rows. -/
theorem block10 (c : Dev nD) (t : Fin cfg0.N) (j : S4000x1.Idx) (i : S200000x1.Idx)
    (hi0 : (i 0).val = t.val * 4000 + (j 0).val) :
    k0_pay2 (F := Ideal) (iblk m c 0 t) j = G10 m c i := by
  obtain ⟨p, u, rfl⟩ : ∃ (p : Fin 4000) (u : Fin 1), j = ix2 p u := ⟨j 0, j 1, eq_ix2 j⟩
  obtain ⟨r, u', rfl⟩ : ∃ (r : Fin 200000) (u' : Fin 1), i = ix2 r u' := ⟨i 0, i 1, eq_ix2 i⟩
  refine (Tile.agg_apply (iblk m c 0 t) p u).trans ?_
  unfold G10 aggColG
  refine congrArg (rowMean 0x43800000#32) (funext fun k => ?_)
  exact (rows_read m c t p k r hi0).trans (congrFun (V_main_arg0 m c) _)

/-- WHAT POINT `t` WRITES BACK to the first result is block `t` of `G9`. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S4000x256) hz, View.ld_unit_zero (S := S256x256) hz, View.ld_unit_zero (S := S1x256) hz,
    View.ld_unit_zero (S := S256x128) hz, View.ld_unit_zero (S := S1x128) hz]
  obtain ⟨-, -, e0, e1, -⟩ := idx_rows t
  funext j
  refine block9 m c t j (((cfg0.win 9).blk t).view.emb j) ?_ ?_
  · show win0_9.index t (0 : Fin 2) * 4000 + 1 * (j 0).val = t.val * 4000 + (j 0).val
    rw [e0]; omega
  · show win0_9.index t (1 : Fin 2) * 128 + 1 * (j 1).val = (j 1).val
    rw [e1]; omega

/-- WHAT POINT `t` WRITES BACK to the column of means is block `t` of `G10`. -/
theorem flushed10_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold out0_10
  rw [View.canon_unit_zero hz]
  simp only [View.ld_unit_zero (S := S4000x256) hz]
  obtain ⟨-, -, -, -, e0, e1⟩ := idx_rows t
  funext j
  refine block10 m c t j (((cfg0.win 10).blk t).view.emb j) ?_
  show win0_10.index t (0 : Fin 2) * 4000 + 1 * (j 0).val = t.val * 4000 + (j 0).val
  rw [e0]; omega

/-! ## The blocks tile the arrays -/

/-- An index of the first result is in point `t`'s block iff each coordinate is in the block's range. -/
theorem mem_blk9 (t : Fin cfg0.N) (i : S200000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v8_0).slice (win0_9.rect t)).set ↔ _
  rw [View.set_slice_whole, Rect.mem_set_unit]
  exact Iff.rfl

/-- The same for the column of means. -/
theorem mem_blk10 (t : Fin cfg0.N) (i : S200000x1.Idx) :
    i ∈ ((cfg0.win 10).blk t).view.set ↔ ∀ a : Fin 2, win0_10.index t a * S4000x1.size a ≤ (i a).val
      ∧ (i a).val < win0_10.index t a * S4000x1.size a + S4000x1.size a := by
  show i ∈ ((View.whole main_v8_1).slice (win0_10.rect t)).set ↔ _
  rw [View.set_slice_whole, Rect.mem_set_unit]
  exact Iff.rfl

/-- Row `r` of the first result is written back by point `r / 4000`. -/
theorem cover9 (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  have hN : cfg0.N = 50 := N_0
  obtain ⟨t, ht⟩ : ∃ t : Fin cfg0.N, t.val = (i 0).val / 4000 := ⟨⟨(i 0).val / 4000, by rw [hN]; omega⟩, rfl⟩
  obtain ⟨-, -, e0, e1, -⟩ := idx_rows t
  refine ⟨t, flush0_9 t, ?_⟩
  rw [mem_blk9]
  intro a
  match a with
  | ⟨0, _⟩ =>
    show win0_9.index t (0 : Fin 2) * 4000 ≤ (i 0).val ∧ (i 0).val < win0_9.index t (0 : Fin 2) * 4000 + 4000
    rw [e0, ht]; omega
  | ⟨1, _⟩ =>
    show win0_9.index t (1 : Fin 2) * 128 ≤ (i 1).val ∧ (i 1).val < win0_9.index t (1 : Fin 2) * 128 + 128
    rw [e1]; omega

/-- Row `r` of the column of means is written back by point `r / 4000`. -/
theorem cover10 (i : S200000x1.Idx) :
    ∃ t : Fin cfg0.N, (cfg0.win 10).flush t = true ∧ i ∈ ((cfg0.win 10).blk t).view.set := by
  have hi0 : (i 0).val < 200000 := (i 0).isLt
  have hi1 : (i 1).val < 1 := (i 1).isLt
  have hN : cfg0.N = 50 := N_0
  obtain ⟨t, ht⟩ : ∃ t : Fin cfg0.N, t.val = (i 0).val / 4000 := ⟨⟨(i 0).val / 4000, by rw [hN]; omega⟩, rfl⟩
  obtain ⟨-, -, -, -, e0, e1⟩ := idx_rows t
  refine ⟨t, flush0_10 t, ?_⟩
  rw [mem_blk10]
  intro a
  match a with
  | ⟨0, _⟩ =>
    show win0_10.index t (0 : Fin 2) * 4000 ≤ (i 0).val ∧ (i 0).val < win0_10.index t (0 : Fin 2) * 4000 + 4000
    rw [e0, ht]; omega
  | ⟨1, _⟩ =>
    show win0_10.index t (1 : Fin 2) * 1 ≤ (i 1).val ∧ (i 1).val < win0_10.index t (1 : Fin 2) * 1 + 1
    rw [e1]; omega

/-- THE FIRST RESULT after the region. -/
theorem final9 (c : Dev nD) : (dats m 0 c).arrAt 9 cfg0.N = G9 m c :=
  (dats m 0 c).arrAt_eq_of_cover 9 (G9 m c) (fun t _ => flushed9_eq m c t) cover9

/-- THE COLUMN OF MEANS after the region. -/
theorem final10 (c : Dev nD) : (dats m 0 c).arrAt 10 cfg0.N = G10 m c :=
  (dats m 0 c).arrAt_eq_of_cover 10 (G10 m c) (fun t _ => flushed10_eq m c t) cover10

/-! ## The host line after the region -/

/-- The second result is the column of means recast as a vector. -/
theorem tail_v9 (c : Dev nD) :
    Pipeline.afterTail₀ cfgs (dats m) 0 (V0 m) [hostOps1] c main_v9 = (aggG (m ((c : Thread nD τ).loc main_arg0)) : S200000.Idx → EReal) := by
  have hw : Pipeline.withArrays (cfgs 0).spec c (V0 m c) (fun w => (dats m 0 c).arrAt w (cfgs 0).N) (Proc.devRef .tc main_v8_1)
      = G10 m c :=
    (Pipeline.withArrays_arr spec0 launch0.win.arr_inj c _ _ 10).trans (final10 m c)
  unfold Pipeline.afterTail₀
  show StableHlo.after hostOps1 _ (Proc.devRef .tc main_v9) = _
  after_results
  funext i
  obtain ⟨r, rfl⟩ : ∃ r : Fin 200000, i = ix1 r := ⟨i 0, eq_ix1 i⟩
  show shapeCast S200000 (Pipeline.withArrays (cfgs 0).spec c (V0 m c) (fun w => (dats m 0 c).arrAt w (cfgs 0).N)
    (Proc.devRef .tc main_v8_1)) Facts₀.shapeCasts_S200000x1_S200000 (ix1 r) = _
  refine (Cert.Lib.shapeCast_a1_a_apply _ _ r).trans ?_
  refine (congrFun hw _).trans ?_
  rfl

/-! ## The run, read -/

/-- The kernel's run: the first result ends at `G9`, the second at the row means, the arguments unchanged. -/
theorem run : θ_run defs (onTc (τ := τ) (main (F := Ideal))) ⟨m, fun _ => 0, ρ⟩ fun r => ∀ c : Dev nD,
      r.2.mem ((c.tc : Thread nD τ).loc main_v8_0) = G9 m c
      ∧ r.2.mem ((c.tc : Thread nD τ).loc main_v9) = (aggG (m ((c : Thread nD τ).loc main_arg0)) : S200000.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 9).trans (final9 m c),
      ((h c).2 main_v9 (Pipeline.mem_restRefs_of main_v9 (by decide) (by decide))).trans (tail_v9 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Arrays

end
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.LibRefReads.lean ====
import Idealize.ShloMosaic.PureOps.Ideal
import Idealize.ShloMosaic.PureOps.Ideal.Laws
import Idealize.ShloMosaic.Lib.ValueIdx
import Idealize.ShloMosaic.Lib.Pipeline.Value

/-!
# Small general facts for reading a host program index by index

A sum over a rank-1 index set is the sum over its coordinate. The words a `jnp.diagonal` builds its start indices
from: a number below `2³¹`, as a 32-bit word, is not below zero in the signed order and reads back as itself. The
float made from the bit "two numbers are equal" is `1` or `0`. A two-column `gather` out of a matrix reads the
matrix at the row and the column its start indices name. A concatenation of two pieces — matrices stacked by rows,
vectors laid end to end, one-column matrices set side by side — read at an index is the piece the index falls in.
-/

noncomputable section

open scoped BigOperators

namespace Cert.RefLib

open Idealize.ShloMosaic Idealize.ShloMosaic.ValueIdx

/-! ## Rank-1 index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words -/

/-- A number below `2³¹`, as a 32-bit word, is not below zero in the signed order. -/
theorem toInt_ofNat32 (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

theorem cmpi_slt_ofNat_zero (n : Nat) (hn : n < 2 ^ 31) : IntOp.cmpi .slt (BitVec.ofNat 32 n) 0#32 = 0#1 := by
  have h : (BitVec.ofNat 32 n).slt 0#32 = false := by
    rw [BitVec.slt, toInt_ofNat32 n hn]
    simp only [BitVec.toInt_zero, decide_eq_false_iff_not, not_lt]
    omega
  show BitVec.ofBool ((BitVec.ofNat 32 n).slt 0#32) = 0#1
  rw [h]; rfl

/-- … and read back as a signed integer it is the number. -/
theorem toInt_toNat_ofNat (n : Nat) (hn : n < 2 ^ 31) : (BitVec.ofNat 32 n).toInt.toNat = n := by
  rw [toInt_ofNat32 n hn]; rfl

/-- The sum of two 32-bit words that are numbers with a sum below `2³²` is the word of the sum. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The float made from the bit "the words of `a` and `b` are equal" is `1` when `a = b` and `0` otherwise. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  by_cases h : a = b
  · subst h; simp
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    simp [h, hne]

section Pick
variable {α : Type}

/-- The dimension numbers of a `gather` that picks single entries out of a matrix `[N, M]`: start indices `[R, 2]`
    (row and column per result entry), both operand axes collapsed, result `[R]`. -/
abbrev pickDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem pick_coord0 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 0 + (pickDims N M R wf).batchCoord (ix1 r) 0
      + (pickDims N M R wf).offCoord (ix1 r) 0 = min (idx (ix2 r 0)).toInt.toNat (N - 1) := by
  have hm : (0 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (0 : Fin 2) (pickDims N M R wf).startIndexMap,
      List.idxOf_lt_length_iff.2 hm⟩ = ix2 r 0 := by
    funext b; refine Fin.ext ?_
    match b with
    | ⟨0, _⟩ => rfl
    | ⟨1, _⟩ => rfl
  rw [hsi]
  rfl

theorem pick_coord1 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 1 + (pickDims N M R wf).batchCoord (ix1 r) 1
      + (pickDims N M R wf).offCoord (ix1 r) 1 = min (idx (ix2 r 1)).toInt.toNat (M - 1) := by
  have hm : (1 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (1 : Fin 2) (pickDims N M R wf).startIndexMap,
      List.idxOf_lt_length_iff.2 hm⟩ = ix2 r 1 := by
    funext b; refine Fin.ext ?_
    match b with
    | ⟨0, _⟩ => rfl
    | ⟨1, _⟩ => rfl
  rw [hsi]
  rfl

/-- Such a gather at result entry `r` reads the matrix at the row `idx[r, 0]` and the column `idx[r, 1]`, each read
    as a signed integer and clamped into the matrix. -/
theorem gather_pick_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pickDims N M R wf) x idx (ix1 r)
      = x (ix2 (⟨min (idx (ix2 r 0)).toInt.toNat (N - 1), by omega⟩ : Fin N)
               (⟨min (idx (ix2 r 1)).toInt.toNat (M - 1), by omega⟩ : Fin M)) := by
  unfold Host.gather
  congr 1
  funext a
  refine Fin.ext ?_
  match a with
  | ⟨0, _⟩ => exact pick_coord0 wf idx r
  | ⟨1, _⟩ => exact pick_coord1 wf idx r

end Pick

section Concat
variable {α : Type}

/-- Two matrices stacked by rows, read at a row of the first: that row of the first. -/
theorem concat_rows_left {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : R.val < n1) :
    concatenate ⟨2, ![n, m]⟩ 0 [⟨⟨2, ![n1, m]⟩, a⟩, ⟨⟨2, ![n2, m]⟩, b⟩] h (ix2 R d) = a (ix2 ⟨R.val, hR⟩ d) :=
  concatenate_pair_apply_left 0 a b h (ix2 R d) rfl (ix2 ⟨R.val, hR⟩ d)
    (fun c => match c with | ⟨0, _⟩ => rfl | ⟨1, _⟩ => rfl)

/-- … and at a row past the first: the second's row, the first's row count less. -/
theorem concat_rows_right {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : n1 ≤ R.val) (hlt : R.val - n1 < n2) :
    concatenate ⟨2, ![n, m]⟩ 0 [⟨⟨2, ![n1, m]⟩, a⟩, ⟨⟨2, ![n2, m]⟩, b⟩] h (ix2 R d) = b (ix2 ⟨R.val - n1, hlt⟩ d) :=
  concatenate_pair_apply_right 0 a b h (ix2 R d) rfl rfl (ix2 ⟨R.val - n1, hlt⟩ d)
    (fun c hc => match c, hc with
      | ⟨0, _⟩, hc => absurd rfl hc
      | ⟨1, _⟩, _ => rfl)
    (by show (R.val - n1) + n1 = R.val; omega)

/-- Two vectors laid end to end, read in the first … -/
theorem concat_vec_left {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n) (hR : R.val < n1) :
    concatenate ⟨1, ![n]⟩ 0 [⟨⟨1, ![n1]⟩, a⟩, ⟨⟨1, ![n2]⟩, b⟩] h (ix1 R) = a (ix1 ⟨R.val, hR⟩) :=
  concatenate_pair_apply_left 0 a b h (ix1 R) rfl (ix1 ⟨R.val, hR⟩)
    (fun c => match c with | ⟨0, _⟩ => rfl)

/-- … and past it. -/
theorem concat_vec_right {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n)
    (hR : n1 ≤ R.val) (hlt : R.val - n1 < n2) :
    concatenate ⟨1, ![n]⟩ 0 [⟨⟨1, ![n1]⟩, a⟩, ⟨⟨1, ![n2]⟩, b⟩] h (ix1 R) = b (ix1 ⟨R.val - n1, hlt⟩) :=
  concatenate_pair_apply_right 0 a b h (ix1 R) rfl rfl (ix1 ⟨R.val - n1, hlt⟩)
    (fun c hc => match c, hc with
      | ⟨0, _⟩, hc => absurd rfl hc)
    (by show (R.val - n1) + n1 = R.val; omega)

/-- Two one-column matrices set side by side: column 0 is the first … -/
theorem concat_cols_left {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 0) = a (ix2 r 0) :=
  concatenate_pair_apply_left 1 a b h (ix2 r 0) rfl (ix2 r 0)
    (fun c => match c with | ⟨0, _⟩ => rfl | ⟨1, _⟩ => rfl)

/-- … and column 1 the second. -/
theorem concat_cols_right {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 1) = b (ix2 r 0) :=
  concatenate_pair_apply_right 1 a b h (ix2 r 1) rfl rfl (ix2 r 0)
    (fun c hc => match c, hc with
      | ⟨0, _⟩, _ => rfl
      | ⟨1, _⟩, hc => absurd rfl hc)
    (by rfl)

end Concat

end Cert.RefLib

end
-- ==== Proof.RefValue.lean ====
/-
  The reference's two results as the whole-array functions `outG` and `aggG`.

  The reference gathers row `idx[r]` of the node matrix for each `r`, where `idx` is the iota 0 … 199999 with
  negative words wrapped by 200000: no word of an iota is negative, so `idx[r] = r`, the word read back signed and
  clamped into the rows is `r`, and the gather is the identity. Each row's mean is then the zero word plus the sum
  of the row, divided by the word for 256. Each dense layer is the host's product of the rows with the weight matrix,
  entry `(p, q)` the sum over `k` of `x (p, k) · W (k, q)`, plus the bias vector repeated over the rows, and the
  rectifier is the maximum with a zero constant.
-/
import proofs.«144793_j41540923687233_2_alg».proof.Proof.Gen.ReferenceIdeal.Read
import proofs.«144793_j41540923687233_2_alg».proof.Proof.Spec
import proofs.«144793_j41540923687233_2_alg».proof.Proof.LibIndexedRows
import proofs.«144793_j41540923687233_2_alg».proof.Proof.LibRefReads

noncomputable section

namespace Cert.ReferenceIdeal.RefValue

open Cert.ReferenceIdeal Cert.ReferenceIdeal.Gen Cert.ReferenceIdeal.Read Cert.RowLayers Cert.Spec
open Idealize.ShloMosaic Idealize.ShloMosaic.ValueIdx

/-! ## The gather is the identity -/

/-- The index word of row `r`: the iota's word, kept by the wrap of negative words. -/
theorem index_word (r : Fin 200000) (u : Fin 1) : val_main_v6 (F := Ideal) (ix2 r u) = BitVec.ofNat 32 r.val := by
  have hr : r.val < 2 ^ 31 := by have := r.isLt; omega
  rw [val_main_v6_apply, val_main_v5_apply, val_main_v2_apply, val_main_v0_apply, val_main_v1_apply, val_main_c_apply]
  show Scalar.select (IntOp.cmpi .slt (BitVec.ofNat 32 r.val) 0#32) _ (BitVec.ofNat 32 r.val) = _
  rw [Cert.RefLib.cmpi_slt_ofNat_zero r.val hr, select_zero]

/-- The gathered matrix at `(r, k)` is the node matrix at `(r, k)`. -/
theorem gathered (x0 : (⟨S200000x256, .f32⟩ : BufTy).Contents (Elt Ideal)) (r : Fin 200000) (k : Fin 256) :
    val_main_v7 (F := Ideal) x0 (ix2 r k) = x0 (ix2 r k) := by
  have hr : r.val < 2 ^ 31 := by have := r.isLt; omega
  unfold val_main_v7
  refine (Cert.Lib.gather_rows_apply (N := 200000) (E := 200000) (C := 256) (by omega)
    Facts₀.gather_S200000x256_S200000x1_S200000x256_1_0_n_n_0_1_1256_wf x0 (val_main_v6 (F := Ideal)) r k).trans ?_
  rw [index_word r 0]
  refine congrArg x0 (congrArg (fun a => ix2 a k) (Fin.ext ?_))
  show min (BitVec.ofNat 32 r.val).toInt.toNat (200000 - 1) = r.val
  rw [Cert.RefLib.toInt_toNat_ofNat r.val hr]
  have := r.isLt
  omega

/-- The reference's second result is the mean of each row. -/
theorem agg_eq (x0 : (⟨S200000x256, .f32⟩ : BufTy).Contents (Elt Ideal)) : val_main_v10 (F := Ideal) x0 = aggG x0 := by
  funext i
  obtain ⟨r, rfl⟩ : ∃ r : Fin 200000, i = ix1 r := ⟨i 0, eq_ix1 i⟩
  have ei : ∀ k : Fin 256, idx_main_v8 (ix1 r) k = ix2 r k := fun k =>
    funext fun a => Fin.ext (by match a with | ⟨0, _⟩ => rfl | ⟨1, _⟩ => rfl)
  rw [val_main_v10_apply, val_main_v8_apply, val_main_v9_apply, val_main_cst_1_apply, val_main_cst_apply]
  simp only [ei, gathered]
  show Ideal.div (Ideal.ofBits .f32 0x00000000#32 + ∑ k : Fin 256, x0 (ix2 r k)) (Ideal.ofBits .f32 0x43800000#32) = _
  rw [Ideal.ofBits_zero_f32, zero_add]
  rfl

/-! ## The layers -/

/-- The first layer and its rectifier at \`(p, q)\`. -/
theorem layer1 (x0 : (⟨S200000x256, .f32⟩ : BufTy).Contents (Elt Ideal)) (x2 : (⟨S256x256, .f32⟩ : BufTy).Contents (Elt Ideal)) (x3 : (⟨S256, .f32⟩ : BufTy).Contents (Elt Ideal)) (p : Fin 200000) (q : Fin 256) :
    val_main_v15 (F := Ideal) x0 x2 x3 (ix2 p q)
      = relu (affine (fun k => x0 (ix2 p k)) (fun k q => x2 (ix2 k q)) (fun q => x3 (ix1 q))) q := by
  have el : ∀ k : Fin 256, lidx_main_v11 (ix2 p q) k = ix2 p k := fun k =>
    funext fun a => Fin.ext (by match a with | ⟨0, _⟩ => rfl | ⟨1, _⟩ => rfl)
  have er : ∀ k : Fin 256, ridx_main_v11 (ix2 p q) k = ix2 k q := fun k =>
    funext fun a => Fin.ext (by match a with | ⟨0, _⟩ => rfl | ⟨1, _⟩ => rfl)
  have eb : idx_main_v12 (idx_main_v13 (ix2 p q)) = ix1 q :=
    funext fun a => Fin.ext (by match a with | ⟨0, _⟩ => rfl)
  rw [val_main_v15_apply, val_main_v14_apply, val_main_v11_apply, val_main_v13_apply, val_main_v12_apply, val_main_call0_v0_apply, val_main_call0_cst_apply]
  simp only [el, er, eb]
  rfl

/-- The second layer and its rectifier at \`(p, q)\`, over the first layer's rows. -/
theorem layer2 (x0 : (⟨S200000x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (p : Fin 200000) (q : Fin 256) :
    val_main_v20 (F := Ideal) x0 x2 x3 x4 x5 (ix2 p q)
      = relu (affine (fun k => val_main_v15 (F := Ideal) x0 x2 x3 (ix2 p k)) (fun k q => x4 (ix2 k q)) (fun q => x5 (ix1 q))) q := by
  have el : ∀ k : Fin 256, lidx_main_v16 (ix2 p q) k = ix2 p k := fun k =>
    funext fun a => Fin.ext (by match a with | ⟨0, _⟩ => rfl | ⟨1, _⟩ => rfl)
  have er : ∀ k : Fin 256, ridx_main_v16 (ix2 p q) k = ix2 k q := fun k =>
    funext fun a => Fin.ext (by match a with | ⟨0, _⟩ => rfl | ⟨1, _⟩ => rfl)
  have eb : idx_main_v17 (idx_main_v18 (ix2 p q)) = ix1 q :=
    funext fun a => Fin.ext (by match a with | ⟨0, _⟩ => rfl)
  rw [val_main_v20_apply, val_main_v19_apply, val_main_v16_apply, val_main_v18_apply, val_main_v17_apply, val_main_call1_v0_apply, val_main_call1_cst_apply]
  simp only [el, er, eb]
  rfl

/-- The third layer and its rectifier at \`(p, q)\`, over the second layer's rows. -/
theorem layer3 (x0 : (⟨S200000x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (p : Fin 200000) (q : Fin 256) :
    val_main_v25 (F := Ideal) x0 x2 x3 x4 x5 x6 x7 (ix2 p q)
      = relu (affine (fun k => val_main_v20 (F := Ideal) x0 x2 x3 x4 x5 (ix2 p k)) (fun k q => x6 (ix2 k q)) (fun q => x7 (ix1 q))) q := by
  have el : ∀ k : Fin 256, lidx_main_v21 (ix2 p q) k = ix2 p k := fun k =>
    funext fun a => Fin.ext (by match a with | ⟨0, _⟩ => rfl | ⟨1, _⟩ => rfl)
  have er : ∀ k : Fin 256, ridx_main_v21 (ix2 p q) k = ix2 k q := fun k =>
    funext fun a => Fin.ext (by match a with | ⟨0, _⟩ => rfl | ⟨1, _⟩ => rfl)
  have eb : idx_main_v22 (idx_main_v23 (ix2 p q)) = ix1 q :=
    funext fun a => Fin.ext (by match a with | ⟨0, _⟩ => rfl)
  rw [val_main_v25_apply, val_main_v24_apply, val_main_v21_apply, val_main_v23_apply, val_main_v22_apply, val_main_call2_v0_apply, val_main_call2_cst_apply]
  simp only [el, er, eb]
  rfl

/-- The output layer at \`(p, q)\`, over the third layer's rows. -/
theorem layer4 (x0 : (⟨S200000x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (p : Fin 200000) (q : Fin 128) :
    val_main_v29 (F := Ideal) x0 x2 x3 x4 x5 x6 x7 x8 x9 (ix2 p q)
      = affine (fun k => val_main_v25 (F := Ideal) x0 x2 x3 x4 x5 x6 x7 (ix2 p k)) (fun k q => x8 (ix2 k q)) (fun q => x9 (ix1 q)) q := by
  have el : ∀ k : Fin 256, lidx_main_v26 (ix2 p q) k = ix2 p k := fun k =>
    funext fun a => Fin.ext (by match a with | ⟨0, _⟩ => rfl | ⟨1, _⟩ => rfl)
  have er : ∀ k : Fin 256, ridx_main_v26 (ix2 p q) k = ix2 k q := fun k =>
    funext fun a => Fin.ext (by match a with | ⟨0, _⟩ => rfl | ⟨1, _⟩ => rfl)
  have eb : idx_main_v27 (idx_main_v28 (ix2 p q)) = ix1 q :=
    funext fun a => Fin.ext (by match a with | ⟨0, _⟩ => rfl)
  rw [val_main_v29_apply, val_main_v26_apply, val_main_v28_apply, val_main_v27_apply]
  simp only [el, er, eb]
  rfl

/-- The reference's first result is the four layers of each row. -/
theorem out_eq (x0 : (⟨S200000x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) :
    val_main_v29 (F := Ideal) x0 x2 x3 x4 x5 x6 x7 x8 x9 = outG x0 x2 x3 x4 x5 x6 x7 x8 x9 := by
  funext i
  obtain ⟨p, q, rfl⟩ : ∃ (p : Fin 200000) (q : Fin 128), i = ix2 p q := ⟨i 0, i 1, eq_ix2 i⟩
  rw [layer4]
  simp only [layer3, layer2, layer1]
  rfl

end Cert.ReferenceIdeal.RefValue

end
-- ==== Proof.lean ====
/-
  The kernel and its reference compute the same two arrays on the extended reals.

  The first result, entry `(r, q)`: four dense layers, `h ↦ (∑ k, h k · W k q) + b q`, a maximum with zero after each
  of the first three, applied to row `r` of the node matrix. The kernel computes it tile by tile — 50 grid points of
  4000 rows, each row's layers depending on that row only, the weights rounded to a narrower float format on the way
  in, which is the identity on the extended reals — and the reference as four whole matrix products. Both are the same
  sums in the same arrangement, so no law beyond the definitions joins them and the finiteness of the inputs is never
  used.

  The second result, entry `r`: the sum of row `r` of the node matrix divided by 256. The reference first gathers the
  rows through the index vector 0, 1, …, 199999 (each word non-negative, so kept by the wrap of negative indices and
  read back as itself): the identity. The kernel keeps the means as a column and recasts it as a vector afterwards.

  Proof/Spec.lean states the two arrays as functions of the arguments; Proof/KernelArrays.lean (over Proof/TileValue.lean)
  shows the kernel's run ends at them, Proof/RefValue.lean that the reference's run does. The idealization rewrote
  nothing, so there is nothing to preserve.
-/
import proofs.«144793_j41540923687233_2_alg».proof.Defs
import proofs.«144793_j41540923687233_2_alg».proof.Proof.Gen.Kernel
import proofs.«144793_j41540923687233_2_alg».proof.Proof.Gen.Kernel.Frame
import proofs.«144793_j41540923687233_2_alg».proof.Proof.Gen.KernelIdeal
import proofs.«144793_j41540923687233_2_alg».proof.Proof.Gen.KernelIdeal.Frame
import proofs.«144793_j41540923687233_2_alg».proof.Proof.Gen.ReferenceIdeal
import proofs.«144793_j41540923687233_2_alg».proof.Proof.Gen.Pre_finite_inputs
import proofs.«144793_j41540923687233_2_alg».proof.Proof.Gen.ReferenceIdeal.Run
import proofs.«144793_j41540923687233_2_alg».proof.Proof.Gen.ReferenceIdeal.Read
import proofs.«144793_j41540923687233_2_alg».proof.Proof.KernelArrays
import proofs.«144793_j41540923687233_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the first result at the four layers of each node's row
    and the second at each row's mean. -/
theorem algebraic : Cert.algebraic_KernelIdeal_ReferenceIdeal := by
  intro m ρ m' ρ' _ hagree
  refine ⟨fun c => Cert.KernelIdeal.Arrays.G9 m c,
    fun c => Cert.Spec.aggG (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v29_eq, Cert.ReferenceIdeal.RefValue.out_eq, a0, a2, a3, a4, a5, a6, a7, a8, a9]
  · rw [Cert.ReferenceIdeal.Read.val_main_v10_eq, Cert.ReferenceIdeal.RefValue.agg_eq, a0]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
